-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Softmax.lean ====
/-
  Scaled dot-product attention over the extended reals, stated once, with no program in sight.

  For one batch `n`, one query row `q` and one output column `c`, the result is
      ∑ₖ  exp(s k − M) / (∑ₖ' exp(s k' − M)) · V[n, k, c],
  where `s k = (∑_c' Q[n, q, c'] · K[n, k, c']) / 8` is the row of logits and `M` is the maximum of that row,
  folded from −∞.  The two programs differ only in where the factor 1/8 sits: one scales every entry of the query
  row by 1/8 before the products are summed, the other divides the finished sum by 8.  Both literals are exact
  powers of two, and a NONNEGATIVE FINITE factor distributes over any sum of extended reals — infinite summands
  of either sign included — so the two rows of logits are equal with no assumption on the entries at all.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-! ## The three literal words -/

/-- The word `0x41000000` is 2³. -/
theorem ofBits_eight : Ideal.ofBits .f32 0x41000000#32 = ((8 : ℝ) : EReal) := by
  simp [Ideal.ofBits, Ideal.ieee, -EReal.coe_mul]; norm_num

/-- The word `0x3E000000` is 2⁻³. -/
theorem ofBits_eighth : Ideal.ofBits .f32 0x3E000000#32 = ((1 / 8 : ℝ) : EReal) := by
  simp [Ideal.ofBits, Ideal.ieee, -EReal.coe_mul]; norm_num

/-- The word `0xFF800000` is −∞, the least extended real. -/
theorem ofBits_negInf : Ideal.ofBits .f32 0xFF800000#32 = (⊥ : EReal) := by
  simp [Ideal.ofBits, Ideal.ieee]

/-! ## A nonnegative finite factor leaves a sum -/

/-- `(∑ xᵢ) · r = ∑ xᵢ · r` for `0 ≤ r < ∞`, whatever the `xᵢ`: by induction on the index set, each step the
    distributivity of a nonnegative finite factor over ONE sum of two extended reals. -/
theorem sum_mul_of_nonneg {ι : Type*} (s : Finset ι) (x : ι → EReal) {r : EReal} (h0 : 0 ≤ r) (ht : r ≠ ⊤) :
    ∑ i ∈ s, x i * r = (∑ i ∈ s, x i) * r := by
  classical
  induction s using Finset.induction_on with
  | empty => simp
  | insert j s hj ih =>
    rw [Finset.sum_insert hj, Finset.sum_insert hj, ih, EReal.right_distrib_of_nonneg_of_ne_top h0 ht]

/-- THE LAW THAT JOINS THE TWO PROGRAMS: scaling every left factor by 2⁻³ and then summing the products is
    summing the products and then dividing by 2³. -/
theorem scaled_dot {ι : Type*} [Fintype ι] (a b : ι → EReal) :
    ∑ i, (a i * Ideal.ofBits .f32 0x3E000000#32) * b i
      = Ideal.div (∑ i, a i * b i) (Ideal.ofBits .f32 0x41000000#32) := by
  rw [ofBits_eighth, ofBits_eight, Ideal.div_coe (by norm_num : (8 : ℝ) ≠ 0)]
  have hr : (0 : EReal) ≤ ((1 / 8 : ℝ) : EReal) := by exact_mod_cast (by norm_num : (0 : ℝ) ≤ 1 / 8)
  rw [← sum_mul_of_nonneg Finset.univ (fun i => a i * b i) hr (EReal.coe_ne_top _)]
  exact Finset.sum_congr rfl fun i _ => mul_right_comm _ _ _

/-! ## The specification -/

/-- A row's maximum, folded from −∞ (the word is kept as a word: both programs spell the same one). -/
def rowMax {n : Nat} (s : Fin n → EReal) : EReal :=
  (Finset.univ : Finset (Fin n)).fold max (Ideal.ofBits .f32 0xFF800000#32) s

/-- Taking the maximum with −∞ once more changes nothing. -/
theorem max_negInf_rowMax {n : Nat} (s : Fin n → EReal) :
    max (Ideal.ofBits .f32 0xFF800000#32) (rowMax s) = rowMax s := by
  rw [ofBits_negInf]; exact max_eq_right bot_le

/-- The softmax of a row of logits `s`, paired with a column `v`:
    `∑ₖ exp(s k − max s) / (∑ₖ' exp(s k' − max s)) · v k`. -/
def softmaxDot {n : Nat} (s v : Fin n → EReal) : EReal :=
  ∑ k : Fin n, Ideal.div (Ideal.exp (s k - rowMax s)) (∑ k' : Fin n, Ideal.exp (s k' - rowMax s)) * v k

/-- The arrays of both programs: 32 batches of 2048 rows of 64 entries. -/
abbrev Arr : Type := (⟨3, ![32, 2048, 64]⟩ : Shape).Idx → EReal

/-- The logit of query row `q` against key row `k` in batch `n`: their dot product over the 64 entries, over 8. -/
def logit (Q K : Arr) (n : Fin 32) (q k : Fin 2048) : EReal :=
  Ideal.div (∑ c : Fin 64, Q (ix3 n q c) * K (ix3 n k c)) (Ideal.ofBits .f32 0x41000000#32)

/-- Attention at batch `n`, query row `q`, column `c`. -/
def attnAt (Q K V : Arr) (n : Fin 32) (q : Fin 2048) (c : Fin 64) : EReal :=
  softmaxDot (fun k : Fin 2048 => logit Q K n q k) (fun k : Fin 2048 => V (ix3 n k c))

/-- The whole result array, index by index. -/
def attn (Q K V : Arr) : Arr := fun i => attnAt Q K V (i 0) (i 1) (i 2)

end Cert.Attention

end
-- ==== Proof.BodyAttn.lean ====
/-
  The kernel body's one stored value, read at an entry.

  At a grid point the body holds a block of 1024 query rows and the batch's 2048 key rows and 2048 value rows (64
  entries each, under a leading unit axis).  It scales the query block by 2⁻³, takes its products with every key row
  summed over the 64 entries (the scores), subtracts from each score its row's maximum (folded from −∞ along the keys,
  kept as a column and repeated along the row), exponentiates, divides by the row's sum of exponentials (again a column
  repeated along the row), and takes the products of these weights with the value rows summed over the 2048 keys.
  So the stored block at (0, r, c) is the softmax of score row `r` paired with column `c` of the values.
-/
import proofs.«165550_j4681514352916_2_alg».proof.Proof.Gen.KernelIdeal.Skeleton
import proofs.«165550_j4681514352916_2_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.Attention.Body

open Cert.KernelIdeal Cert.KernelIdeal.Gen Cert.Attention
open Idealize.ShloMosaic Idealize.ShloMosaic.ValueIdx

/-! ## Two layout steps that keep a reduced axis as a unit column -/

/-- A vector of `a` entries cast to one column reads, at (i, 0), entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated along `b` columns reads, at (p, c), the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products as plain sums -/

/-- Queries against keys: both operands contracted along their 64 entries. -/
abbrev dQK : DotDims S1024x64 S2048x64 S1024x2048 := dot_S1024x64_S2048x64_S1024x2048_1_1_0_0_n_n
/-- Weights against values: the weights' 2048 keys contracted with the values' 2048 rows. -/
abbrev dPV : DotDims S1024x2048 S2048x64 S1024x64 := dot_S1024x2048_S2048x64_S1024x64_1_0_0_1_n_n

theorem qk_lhs0 (j : S1024x2048.Idx) (q : dQK.contr.Idx) : (dQK.lhsIdx j q 0).val = (j 0).val := by
  unfold DotDims.lhsIdx
  rw [dif_neg (show ¬(0 : Fin S1024x64.rank) ∈ dQK.lhsBatch by decide), dif_pos (show (0 : Fin S1024x64.rank) ∈ dQK.lhsNonContracting by decide)]
  rfl
theorem qk_lhs1 (j : S1024x2048.Idx) (q : dQK.contr.Idx) : (dQK.lhsIdx j q 1).val = (q ⟨0, by decide⟩).val :=
  dQK.lhsIdx_val_of_single rfl j q
theorem qk_rhs0 (j : S1024x2048.Idx) (q : dQK.contr.Idx) : (dQK.rhsIdx j q 0).val = (j 1).val := by
  unfold DotDims.rhsIdx
  rw [dif_neg (show ¬(0 : Fin S2048x64.rank) ∈ dQK.rhsBatch by decide), dif_pos (show (0 : Fin S2048x64.rank) ∈ dQK.rhsNonContracting by decide)]
  rfl
theorem qk_rhs1 (j : S1024x2048.Idx) (q : dQK.contr.Idx) : (dQK.rhsIdx j q 1).val = (q ⟨0, by decide⟩).val :=
  dQK.rhsIdx_val_of_single rfl j q

/-- The score of query row `r` against key row `k`: the sum over the 64 entries of the products. -/
theorem qk_apply (l : FVec Ideal S1024x64 .f32) (rr : FVec Ideal S2048x64 .f32) (r : Fin 1024) (k : Fin 2048) :
    matmul dQK (some .fp32) l rr (constant (F := Ideal) S1024x2048 .f32 0x00000000#32) (ix2 r k)
      = ∑ c' : Fin 64, l (ix2 r c') * rr (ix2 k c') := by
  simp only [matmul]
  rw [Ideal.matmul_constant_zero_apply, ← Equiv.sum_comp (contrEquiv1 dQK 64 rfl rfl).symm]
  refine Finset.sum_congr rfl fun c' _ => ?_
  have hk := contrEquiv1_symm_val dQK 64 rfl rfl c'
  have el : dQK.lhsIdx (ix2 r k) ((contrEquiv1 dQK 64 rfl rfl).symm c') = ix2 r c' := funext fun a => Fin.ext (by
    match a with
    | ⟨0, _⟩ => exact qk_lhs0 _ _
    | ⟨1, _⟩ => exact (qk_lhs1 _ _).trans hk)
  have er : dQK.rhsIdx (ix2 r k) ((contrEquiv1 dQK 64 rfl rfl).symm c') = ix2 k c' := funext fun a => Fin.ext (by
    match a with
    | ⟨0, _⟩ => exact qk_rhs0 _ _
    | ⟨1, _⟩ => exact (qk_rhs1 _ _).trans hk)
  rw [el, er]

theorem pv_lhs0 (j : S1024x64.Idx) (q : dPV.contr.Idx) : (dPV.lhsIdx j q 0).val = (j 0).val := by
  unfold DotDims.lhsIdx
  rw [dif_neg (show ¬(0 : Fin S1024x2048.rank) ∈ dPV.lhsBatch by decide), dif_pos (show (0 : Fin S1024x2048.rank) ∈ dPV.lhsNonContracting by decide)]
  rfl
theorem pv_lhs1 (j : S1024x64.Idx) (q : dPV.contr.Idx) : (dPV.lhsIdx j q 1).val = (q ⟨0, by decide⟩).val :=
  dPV.lhsIdx_val_of_single rfl j q
theorem pv_rhs0 (j : S1024x64.Idx) (q : dPV.contr.Idx) : (dPV.rhsIdx j q 0).val = (q ⟨0, by decide⟩).val :=
  dPV.rhsIdx_val_of_single rfl j q
theorem pv_rhs1 (j : S1024x64.Idx) (q : dPV.contr.Idx) : (dPV.rhsIdx j q 1).val = (j 1).val := by
  unfold DotDims.rhsIdx
  rw [dif_neg (show ¬(1 : Fin S2048x64.rank) ∈ dPV.rhsBatch by decide), dif_pos (show (1 : Fin S2048x64.rank) ∈ dPV.rhsNonContracting by decide)]
  rfl

/-- Row `r` of the weights against column `c` of the values: the sum over the 2048 keys of the products. -/
theorem pv_apply (l : FVec Ideal S1024x2048 .f32) (rr : FVec Ideal S2048x64 .f32) (r : Fin 1024) (c : Fin 64) :
    matmul dPV (some .fp32) l rr (constant (F := Ideal) S1024x64 .f32 0x00000000#32) (ix2 r c)
      = ∑ k : Fin 2048, l (ix2 r k) * rr (ix2 k c) := by
  simp only [matmul]
  rw [Ideal.matmul_constant_zero_apply, ← Equiv.sum_comp (contrEquiv1 dPV 2048 rfl rfl).symm]
  refine Finset.sum_congr rfl fun k _ => ?_
  have hk := contrEquiv1_symm_val dPV 2048 rfl rfl k
  have el : dPV.lhsIdx (ix2 r c) ((contrEquiv1 dPV 2048 rfl rfl).symm k) = ix2 r k := funext fun a => Fin.ext (by
    match a with
    | ⟨0, _⟩ => exact pv_lhs0 _ _
    | ⟨1, _⟩ => exact (pv_lhs1 _ _).trans hk)
  have er : dPV.rhsIdx (ix2 r c) ((contrEquiv1 dPV 2048 rfl rfl).symm k) = ix2 k c := funext fun a => Fin.ext (by
    match a with
    | ⟨0, _⟩ => exact (pv_rhs0 _ _).trans hk
    | ⟨1, _⟩ => exact pv_rhs1 _ _)
  rw [el, er]

/-! ## The two reductions along a row -/

/-- A row index with the key coordinate put back. -/
theorem lift_row (r : Fin 1024) (k : Fin (S1024x2048.size 1)) :
    reduces_S1024x2048_S1024.lift (ix1 r) k = ix2 r (⟨k.val, k.isLt⟩ : Fin 2048) := by
  funext a; apply Fin.ext
  match a with
  | ⟨0, _⟩ => rfl
  | ⟨1, _⟩ => rfl

/-- The row maximum the body takes, from −∞ along the keys, is the specification's. -/
theorem laneMax_apply (src : FVec Ideal S1024x2048 .f32) (hφ : FKind.Formats .f32)
    (hacc : (0xFF800000#32 : BitVec 32) = FKind.maximumf.neutral .f32 hφ) (r : Fin 1024) :
    multiReduction .maximumf [1] S1024 src 0xFF800000#32 reduces_S1024x2048_S1024 hφ hacc (ix1 r)
      = rowMax (fun k : Fin 2048 => src (ix2 r k)) := by
  refine (Ideal.multiReduction_maximumf_single src 0xFF800000#32 reduces_S1024x2048_S1024 hφ hacc (ix1 r)).trans ?_
  have hf : (src ∘ reduces_S1024x2048_S1024.lift (ix1 r)) = fun k : Fin 2048 => src (ix2 r k) :=
    funext fun k => congrArg src (lift_row r k)
  rw [hf]
  rfl

/-- The row sum the body takes along the keys. -/
theorem laneSum_apply (src : FVec Ideal S1024x2048 .f32) (hφ : FKind.Formats .f32)
    (hacc : (0x00000000#32 : BitVec 32) = FKind.add.neutral .f32 hφ) (r : Fin 1024) :
    multiReduction .add [1] S1024 src 0x00000000#32 reduces_S1024x2048_S1024 hφ hacc (ix1 r)
      = ∑ k : Fin 2048, src (ix2 r k) := by
  refine (Ideal.multiReduction_add_single src 0x00000000#32 reduces_S1024x2048_S1024 hφ hacc (ix1 r)).trans ?_
  exact Finset.sum_congr rfl fun k _ => congrArg src (lift_row r k)

/-! ## The body's stages -/

/-- The scores of a block of query rows against the key rows, the queries scaled first. -/
def scores (x0 : FVec Ideal S1x1024x64 .f32) (x1 : FVec Ideal S1x2048x64 .f32) : FVec Ideal S1024x2048 .f32 :=
  matmul dQK (some .fp32)
    (mulf (shapeCast S1024x64 x0 shapeCasts_S1x1024x64_S1024x64) (broadcast S1024x64 (Scalar.ofBits (F := Ideal) .f32 0x3E000000#32)))
    (shapeCast S2048x64 x1 shapeCasts_S1x2048x64_S2048x64) (constant (F := Ideal) S1024x2048 .f32 0x00000000#32)

/-- Each score less its row's maximum, exponentiated. -/
def expo (s : FVec Ideal S1024x2048 .f32) : FVec Ideal S1024x2048 .f32 :=
  exp (subf s (broadcastTo S1024x2048
    (shapeCast S1024x1 (multiReduction .maximumf [1] S1024 s 0xFF800000#32 reduces_S1024x2048_S1024 (.inl rfl) rfl) shapeCasts_S1024_S1024x1)
    broadcasts_S1024x1_S1024x2048))

/-- Each exponential over its row's sum. -/
def weights (p : FVec Ideal S1024x2048 .f32) : FVec Ideal S1024x2048 .f32 :=
  divf p (broadcastTo S1024x2048
    (shapeCast S1024x1 (multiReduction .add [1] S1024 p 0x00000000#32 reduces_S1024x2048_S1024 (.inl rfl) rfl) shapeCasts_S1024_S1024x1)
    broadcasts_S1024x1_S1024x2048)

/-- The stored value is the weights against the values, under a leading unit axis: the printed operations in order. -/
theorem pay_eq (x0 : FVec Ideal S1x1024x64 .f32) (x1 x2 : FVec Ideal S1x2048x64 .f32) :
    k0_pay1 x0 x1 x2 = shapeCast S1x1024x64
      (matmul dPV (some .fp32) (weights (expo (scores x0 x1))) (shapeCast S2048x64 x2 shapeCasts_S1x2048x64_S2048x64)
        (constant (F := Ideal) S1024x64 .f32 0x00000000#32)) shapeCasts_S1024x64_S1x1024x64 := rfl

theorem scores_apply (x0 : FVec Ideal S1x1024x64 .f32) (x1 : FVec Ideal S1x2048x64 .f32) (r : Fin 1024) (k : Fin 2048) :
    scores x0 x1 (ix2 r k)
      = ∑ c' : Fin 64, (x0 (ix3 (0 : Fin 1) r c') * Ideal.ofBits .f32 0x3E000000#32) * x1 (ix3 (0 : Fin 1) k c') := by
  unfold scores
  refine (qk_apply _ _ r k).trans ?_
  refine Finset.sum_congr rfl fun c' _ => ?_
  rw [mulf_apply, broadcast_apply, shapeCast_1ab_ab_apply, shapeCast_1ab_ab_apply]
  rfl

theorem expo_apply (s : FVec Ideal S1024x2048 .f32) (r : Fin 1024) (k : Fin 2048) :
    expo s (ix2 r k) = Ideal.exp (s (ix2 r k) - rowMax (fun k' : Fin 2048 => s (ix2 r k'))) := by
  unfold expo
  exact congrArg (fun mx => Ideal.exp (s (ix2 r k) - mx))
    ((broadcastTo_a1_ab_apply _ broadcasts_S1024x1_S1024x2048 r k).trans
      ((shapeCast_a_a1_apply _ shapeCasts_S1024_S1024x1 r 0).trans (laneMax_apply s _ _ r)))

theorem weights_apply (p : FVec Ideal S1024x2048 .f32) (r : Fin 1024) (k : Fin 2048) :
    weights p (ix2 r k) = Ideal.div (p (ix2 r k)) (∑ k' : Fin 2048, p (ix2 r k')) := by
  unfold weights
  exact congrArg (fun sm => Ideal.div (p (ix2 r k)) sm)
    ((broadcastTo_a1_ab_apply _ broadcasts_S1024x1_S1024x2048 r k).trans
      ((shapeCast_a_a1_apply _ shapeCasts_S1024_S1024x1 r 0).trans (laneSum_apply p _ _ r)))

/-- THE STORED BLOCK AT AN ENTRY: the softmax of the scaled-query score row `r`, paired with column `c` of the values. -/
theorem pay_apply (x0 : FVec Ideal S1x1024x64 .f32) (x1 x2 : FVec Ideal S1x2048x64 .f32) (z : Fin 1) (r : Fin 1024) (c : Fin 64) :
    k0_pay1 (F := Ideal) x0 x1 x2 (ix3 z r c)
      = softmaxDot
          (fun k : Fin 2048 => ∑ c' : Fin 64, (x0 (ix3 (0 : Fin 1) r c') * Ideal.ofBits .f32 0x3E000000#32) * x1 (ix3 (0 : Fin 1) k c'))
          (fun k : Fin 2048 => x2 (ix3 (0 : Fin 1) k c)) := by
  rw [pay_eq]
  refine (shapeCast_ab_1ab_apply _ shapeCasts_S1024x64_S1x1024x64 z r c).trans ?_
  refine (pv_apply _ _ r c).trans ?_
  unfold softmaxDot
  simp only [weights_apply, expo_apply, scores_apply, shapeCast_1ab_ab_apply]

/-- … which, the factor 2⁻³ taken out of each score's sum, is the softmax of the dot products over 8. -/
theorem pay_apply_div (x0 : FVec Ideal S1x1024x64 .f32) (x1 x2 : FVec Ideal S1x2048x64 .f32) (z : Fin 1) (r : Fin 1024) (c : Fin 64) :
    k0_pay1 (F := Ideal) x0 x1 x2 (ix3 z r c)
      = softmaxDot
          (fun k : Fin 2048 => Ideal.div (∑ c' : Fin 64, x0 (ix3 (0 : Fin 1) r c') * x1 (ix3 (0 : Fin 1) k c')) (Ideal.ofBits .f32 0x41000000#32))
          (fun k : Fin 2048 => x2 (ix3 (0 : Fin 1) k c)) := by
  rw [pay_apply]
  exact congrArg (fun s => softmaxDot s _) (funext fun k => scaled_dot _ _)

end Cert.Attention.Body

end
-- ==== Proof.KernelAttn.lean ====
/-
  From blocks to the whole array.

  The grid has 32 × 2 points: point `t` works on batch `t / 2` and on the half `t % 2` of that batch's 2048 query rows.
  Its query block is rows 1024·(t % 2) … 1024·(t % 2) + 1023 of the batch, its key and value blocks are the batch's
  whole 2048 rows, and the block it writes back lies where its query block lies.  So entry (0, r, c) of what point `t`
  writes is attention at batch t / 2, query row 1024·(t % 2) + r, column c — the specification read through the
  block — and since the 64 blocks tile the result array, the array ends holding the specification everywhere.
-/
import proofs.«165550_j4681514352916_2_alg».proof.Proof.Gen.KernelIdeal.Value
import proofs.«165550_j4681514352916_2_alg».proof.Proof.BodyAttn
import Idealize.ShloMosaic.Lib.Pipeline.Value

set_option maxRecDepth 16384

noncomputable section

namespace Cert.Attention.Kernel

open Cert.KernelIdeal Cert.KernelIdeal.Gen Cert.KernelIdeal.Value Cert.Attention Cert.Attention.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The four index maps over the grid: queries and results move together; keys and values follow the batch only and
    take the whole of its rows; nothing moves along the 64 entries. -/
theorem index_maps : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) ≤ 1 ∧ win0_3.index t (2 : Fin 3) = 0 :=
  (by decide +kernel : ∀ t : Fin grid0.N, _)

/-- Every (batch, half) is some point's. -/
theorem index_onto : ∀ (n : Fin 32) (h : Fin 2), ∃ t : Fin cfg0.N, win0_3.index t = ![n.val, h.val, 0] :=
  (by decide +kernel : ∀ (n : Fin 32) (h : Fin 2), ∃ t : Fin grid0.N, win0_3.index t = ![n.val, h.val, 0])

/-- ONE ENTRY OF ONE BLOCK: if the query block's row `r` is row `q` of batch `n` of Q, and the key and value blocks are
    batch `n`'s rows of K and V, the body's stored value at (0, r, c) is attention at (n, q, c). -/
theorem block_value (Q K V : Arr) (x0 : FVec Ideal S1x1024x64 .f32) (x1 x2 : FVec Ideal S1x2048x64 .f32)
    (z : Fin 1) (r : Fin 1024) (c : Fin 64) (n : Fin 32) (q : Fin 2048)
    (h0 : ∀ c' : Fin 64, x0 (ix3 (0 : Fin 1) r c') = Q (ix3 n q c'))
    (h1 : ∀ (k : Fin 2048) (c' : Fin 64), x1 (ix3 (0 : Fin 1) k c') = K (ix3 n k c'))
    (h2 : ∀ k : Fin 2048, x2 (ix3 (0 : Fin 1) k c) = V (ix3 n k c)) :
    k0_pay1 (F := Ideal) x0 x1 x2 (ix3 z r c) = attn Q K V (ix3 n q c) := by
  rw [pay_apply_div]
  show _ = attnAt Q K V n q c
  unfold attnAt logit
  simp only [h0, h1, h2]

/-- WHAT POINT `t` WRITES BACK is block `t` of attention of the argument arrays. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [flushed3]
  unfold out0_3
  rw [View.canon_unit_zero zero3]
  simp only [View.ld_unit_zero (S := S1x1024x64) zero3, View.ld_unit_zero (S := S1x2048x64) zero3]
  obtain ⟨e00, e01, e02, e10, e11, e12, e20, e21, e22, b0, b1, e32⟩ := index_maps t
  funext j
  obtain ⟨z, r, cc, rfl⟩ : ∃ (z : Fin 1) (r : Fin 1024) (cc : Fin 64), j = ix3 z r cc := ⟨j 0, j 1, j 2, eq_ix3 j⟩
  have hz : z.val = 0 := by omega
  have hr : r.val < 1024 := r.isLt
  have hemb : ((cfg0.win 3).blk t).view.emb (ix3 z r cc)
      = ix3 (⟨win0_3.index t (0 : Fin 3), by omega⟩ : Fin 32) (⟨win0_3.index t (1 : Fin 3) * 1024 + r.val, by omega⟩ : Fin 2048) cc :=
    funext fun a => Fin.ext (by
      match a with
      | ⟨0, _⟩ => show win0_3.index t (0 : Fin 3) * 1 + 1 * z.val = win0_3.index t (0 : Fin 3); omega
      | ⟨1, _⟩ => show win0_3.index t (1 : Fin 3) * 1024 + 1 * r.val = win0_3.index t (1 : Fin 3) * 1024 + r.val; omega
      | ⟨2, _⟩ => show win0_3.index t (2 : Fin 3) * 64 + 1 * cc.val = cc.val; omega)
  show k0_pay1 (F := Ideal) (iblk m c 0 t) (iblk m c 1 t) (iblk m c 2 t) (ix3 z r cc)
      = attn (V m c main_arg0) (V m c main_arg1) (V m c main_arg2) (((cfg0.win 3).blk t).view.emb (ix3 z r cc))
  rw [hemb]
  refine block_value (V m c main_arg0) (V m c main_arg1) (V m c main_arg2) (iblk m c 0 t) (iblk m c 1 t) (iblk m c 2 t)
    z r cc _ _ ?_ ?_ ?_
  · intro c'
    show V m c main_arg0 (((cfg0.win 0).blk t).view.emb (ix3 (0 : Fin 1) r c')) = V m c main_arg0 _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * r.val = win0_3.index t (1 : Fin 3) * 1024 + r.val; omega
    | ⟨2, _⟩ => show win0_0.index t (2 : Fin 3) * 64 + 1 * c'.val = c'.val; omega
  · intro k c'
    have hk : k.val < 2048 := k.isLt
    show V m c main_arg1 (((cfg0.win 1).blk t).view.emb (ix3 (0 : Fin 1) k c')) = V m c main_arg1 _
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 64 + 1 * c'.val = c'.val; omega
  · intro k
    have hk : k.val < 2048 := k.isLt
    show V m c main_arg2 (((cfg0.win 2).blk t).view.emb (ix3 (0 : Fin 1) k cc)) = V m c main_arg2 _
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * k.val = k.val; omega
    | ⟨2, _⟩ => show win0_2.index t (2 : Fin 3) * 64 + 1 * cc.val = cc.val; omega

/-- An index of the result array is in point `t`'s block iff each coordinate is in the block's range on its axis. -/
theorem mem_blk (t : Fin cfg0.N) (i : S32x2048x64.Idx) :
    i ∈ ((cfg0.win 3).blk t).view.set
      ↔ ∀ a : Fin 3, win0_3.index t a * S1x1024x64.size a ≤ (i a).val ∧ (i a).val < win0_3.index t a * S1x1024x64.size a + S1x1024x64.size a := by
  show i ∈ ((View.whole main_v0).slice (win0_3.rect t)).set ↔ _
  rw [View.set_slice_whole, Rect.mem_set_unit]
  exact Iff.rfl

/-- The blocks tile the result: row `q` of batch `n` is in the block of the point for (n, q / 1024). -/
theorem cover (i : S32x2048x64.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE RESULT ARRAY after the run is attention of the argument arrays. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run re-posted: the result at attention of the arguments, the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Attention.Kernel

end
-- ==== Proof.RefAttn.lean ====
/-
  The reference, read stage by stage, is attention as specified.

  Its result at (n, q, c) is the contraction over the 2048 keys of the softmax weights with V[n, ·, c].  The weights are
  the exponentials of the logits less their row maximum, over the sum of those exponentials; the logits are the
  dot products of query and key rows, divided by 8.  The row maximum is a fold of `max` from −∞ over the key axis, and
  the reference then takes its maximum with −∞ once more, which changes nothing.  The sum of exponentials starts from
  the word for zero.  Every layout step between these (a scalar broadcast, a row value broadcast along the key axis)
  only repeats a value, so at an index it reads one entry of its operand.
-/
import proofs.«165550_j4681514352916_2_alg».proof.Proof.Gen.ReferenceIdeal.Read
import proofs.«165550_j4681514352916_2_alg».proof.Proof.Softmax
import Idealize.ShloMosaic.PureOps.Reduce

noncomputable section

namespace Cert.Attention.Ref

open Cert.ReferenceIdeal Cert.ReferenceIdeal.Gen Cert.ReferenceIdeal.Read Cert.Attention
open Idealize.ShloMosaic Idealize.ShloMosaic.ValueIdx

variable (Q K : (⟨S32x2048x64, .f32⟩ : BufTy).Contents (Elt Ideal))

/-- The logits: the dot product of query row (n, q) with key row (n, k), over 8. -/
theorem logits_apply (j : S32x2048x2048.Idx) :
    val_main_v2 (F := Ideal) Q K j = logit Q K (j 0) (j 1) (j 2) := by
  rw [val_main_v2_apply, val_main_v0_apply, val_main_v1_apply, val_main_cst_apply]
  have el : ∀ c : Fin 64, lidx_main_v0 j c = ix3 (j 0) (j 1) c := fun c =>
    funext fun a => Fin.ext (by match a with | ⟨0, _⟩ => rfl | ⟨1, _⟩ => rfl | ⟨2, _⟩ => rfl)
  have er : ∀ c : Fin 64, ridx_main_v0 j c = ix3 (j 0) (j 2) c := fun c =>
    funext fun a => Fin.ext (by match a with | ⟨0, _⟩ => rfl | ⟨1, _⟩ => rfl | ⟨2, _⟩ => rfl)
  simp only [el, er, Ideal.hostDivf_def, Ideal.ofBits_def]
  rfl

/-- The key axis put back into a (batch, query) index. -/
theorem lift_key (h : S32x2048x2048.Reduces [2] S32x2048) (j : S32x2048.Idx) (k : Fin (S32x2048x2048.size 2)) :
    h.lift j k = ix3 (j 0) (j 1) (⟨k.val, k.isLt⟩ : Fin 2048) := by
  funext a; apply Fin.ext
  match a with
  | ⟨0, _⟩ => rfl
  | ⟨1, _⟩ => rfl
  | ⟨2, _⟩ => rfl

/-- The row maximum of the logits, folded from −∞ over the keys. -/
theorem rowMax_apply (j : S32x2048.Idx) :
    val_main_v3 (F := Ideal) Q K j = rowMax (fun k : Fin 2048 => logit Q K (j 0) (j 1) k) := by
  have h : S32x2048x2048.Reduces [2] S32x2048 := by decide
  unfold val_main_v3
  rw [Host.reduce_eq_fold_single FloatOps.maximumf _ _ reducesTo_S32x2048x2048_S32x2048_d2 h h_S_]
  have hf : (val_main_v2 (F := Ideal) Q K ∘ h.lift j) = fun k : Fin 2048 => logit Q K (j 0) (j 1) k :=
    funext fun k =>
      (congrArg (val_main_v2 (F := Ideal) Q K) (lift_key h j k)).trans (logits_apply Q K _)
  rw [hf]
  rfl

/-- … and its maximum with −∞, which the reference takes next, is the same number. -/
theorem rowMax'_apply (j : S32x2048.Idx) :
    val_main_v5 (F := Ideal) Q K j = rowMax (fun k : Fin 2048 => logit Q K (j 0) (j 1) k) := by
  rw [val_main_v5_apply, val_main_v4_apply, val_main_cst_1_apply, rowMax_apply]
  exact max_negInf_rowMax _

/-- The exponential of a logit less its row's maximum. -/
theorem exps_apply (j : S32x2048x2048.Idx) :
    val_main_v9 (F := Ideal) Q K j
      = Ideal.exp (logit Q K (j 0) (j 1) (j 2) - rowMax (fun k : Fin 2048 => logit Q K (j 0) (j 1) k)) := by
  rw [val_main_v9_apply, val_main_v8_apply, val_main_v7_apply, val_main_v6_apply, rowMax'_apply, logits_apply]
  rfl

/-- The sum of a row's exponentials (from the word for zero). -/
theorem sumExp_apply (j : S32x2048.Idx) :
    val_main_v10 (F := Ideal) Q K j
      = ∑ k' : Fin 2048, Ideal.exp (logit Q K (j 0) (j 1) k' - rowMax (fun k : Fin 2048 => logit Q K (j 0) (j 1) k)) := by
  rw [val_main_v10_apply, val_main_cst_2_apply]
  simp only [Ideal.ofBits_def, Ideal.ofBits_zero_f32, zero_add]
  refine Finset.sum_congr rfl fun k' _ => ?_
  rw [exps_apply]
  rfl

/-- The softmax weight of key `k` for query row (n, q). -/
theorem weights_apply (j : S32x2048x2048.Idx) :
    val_main_v13 (F := Ideal) Q K j
      = Ideal.div (Ideal.exp (logit Q K (j 0) (j 1) (j 2) - rowMax (fun k : Fin 2048 => logit Q K (j 0) (j 1) k)))
          (∑ k' : Fin 2048, Ideal.exp (logit Q K (j 0) (j 1) k' - rowMax (fun k : Fin 2048 => logit Q K (j 0) (j 1) k))) := by
  rw [val_main_v13_apply, val_main_v12_apply, val_main_v11_apply, sumExp_apply, exps_apply]
  rfl

/-- THE REFERENCE IS THE SPECIFICATION: its last stage, the weights contracted with V over the keys. -/
theorem result_eq (V : (⟨S32x2048x64, .f32⟩ : BufTy).Contents (Elt Ideal)) :
    val_main_v14 (F := Ideal) Q K V = attn Q K V := by
  funext i
  rw [val_main_v14_apply]
  unfold attn attnAt softmaxDot
  refine Finset.sum_congr rfl fun k _ => ?_
  rw [weights_apply]
  have ev : ridx_main_v14 i k = ix3 (i 0) k (i 2) :=
    funext fun a => Fin.ext (by match a with | ⟨0, _⟩ => rfl | ⟨1, _⟩ => rfl | ⟨2, _⟩ => rfl)
  rw [ev]
  rfl

end Cert.Attention.Ref

end
-- ==== Proof.lean ====
/-
  Scaled dot-product attention: a tiled kernel against softmax(Q Kᵀ / 8) V computed whole.

  The arrays are 32 batches of 2048 rows of 64 entries.  The reference forms, per batch, all 2048 × 2048 dot products
  of query rows with key rows, divides them by 8, takes the softmax along the keys (subtract the row maximum,
  exponentiate, divide by the row's sum of exponentials), and contracts the weights with the value rows.  The kernel
  does the same on one batch and one block of 1024 query rows per grid point, except that it multiplies the query
  block by 1/8 BEFORE the dot products instead of dividing them by 8 afterwards.

  Over the extended reals the two agree at every entry, with no assumption on the inputs:
    * 1/8 and 8 are exact powers of two, and a nonnegative finite factor distributes over any finite sum of extended
      reals, so  ∑ (q·⅛)·k = (∑ q·k)·⅛ = (∑ q·k)/8  — the two rows of logits are one row (Proof/Softmax.lean);
    * from equal logits on, both programs apply the same operations — a maximum folded from −∞ along the keys (the
      reference takes it with −∞ once more, which changes nothing), a subtraction, an exponential, a sum from zero,
      a division, a contraction — so both results are `Attention.attn Q K V`: the reference's by reading its
      operations one at a time (Proof/RefAttn.lean), the kernel's by reading its body's stored value at an entry
      (Proof/BodyAttn.lean) and placing each grid point's block in the result array, which the 64 blocks tile
      (Proof/KernelAttn.lean).
  The kernel's idealization rewrote no operation, so that conjunct is trivial; the three runs' frames are the
  generated ones.
-/
import proofs.«165550_j4681514352916_2_alg».proof.Defs
import proofs.«165550_j4681514352916_2_alg».proof.Proof.Gen.Kernel
import proofs.«165550_j4681514352916_2_alg».proof.Proof.Gen.Kernel.Skeleton
import proofs.«165550_j4681514352916_2_alg».proof.Proof.Gen.Kernel.Launch
import proofs.«165550_j4681514352916_2_alg».proof.Proof.Gen.Kernel.Points
import proofs.«165550_j4681514352916_2_alg».proof.Proof.Gen.Kernel.Frame
import proofs.«165550_j4681514352916_2_alg».proof.Proof.Gen.KernelIdeal
import proofs.«165550_j4681514352916_2_alg».proof.Proof.Gen.KernelIdeal.Skeleton
import proofs.«165550_j4681514352916_2_alg».proof.Proof.Gen.KernelIdeal.Launch
import proofs.«165550_j4681514352916_2_alg».proof.Proof.Gen.KernelIdeal.Points
import proofs.«165550_j4681514352916_2_alg».proof.Proof.Gen.KernelIdeal.Frame
import proofs.«165550_j4681514352916_2_alg».proof.Proof.Gen.KernelIdeal.Value
import proofs.«165550_j4681514352916_2_alg».proof.Proof.Gen.ReferenceIdeal
import proofs.«165550_j4681514352916_2_alg».proof.Proof.Gen.ReferenceIdeal.Run
import proofs.«165550_j4681514352916_2_alg».proof.Proof.Gen.ReferenceIdeal.Read
import proofs.«165550_j4681514352916_2_alg».proof.Proof.Gen.Pre_finite_inputs
import proofs.«165550_j4681514352916_2_alg».proof.Proof.KernelAttn
import proofs.«165550_j4681514352916_2_alg».proof.Proof.RefAttn
import Idealize.ShloMosaic.Adequacy
import Idealize.ShloMosaic.Init

noncomputable section

namespace Cert.Proof

open Idealize.ShloMosaic Idealize.SL.Sem Cert.Kernel

/-- The kernel as printed runs to the end and leaves Q, K, V as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, the kernel's result array ends at attention of its arguments and the reference's result
    at attention of its own: one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Attention.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ((Cert.Attention.Ref.result_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
